-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x2 : Shape := ⟨2, ![4194304, 2]⟩
abbrev S_ : Shape := ⟨0, ![]⟩

class Facts : Prop where
  bcast_S_S4194304x2 : S_.BroadcastsInDim S4194304x2 (![] : Fin 0 → Fin S4194304x2.rank)
  reducesTo_S4194304x2_S_d0_1 : S4194304x2.ReducesTo [0, 1] S_
  h_S_ : 0 < S_.numel

variable [Facts]

def fn {F : FTy → Type} [FloatOps F] (main_arg0 : FVec F S4194304x2 .f32) : IVec S_ 1 :=
  let main_v0 : FVec F S4194304x2 .f32 := Host.absf main_arg0
  let main_cst : FVec F S_ .f32 := constant S_ .f32 0x7F800000#32
  let main_v1 : FVec F S4194304x2 .f32 := broadcastInDim S4194304x2 ![] bcast_S_S4194304x2 main_cst
  let main_v2 : IVec S4194304x2 1 := cmpf .olt main_v0 main_v1
  let main_c : IVec S_ 1 := constantI S_ 1 1#1
  let main_v3 : IVec S_ 1 := (fun x v => Host.reduce IntOp.andi x v reducesTo_S4194304x2_S_d0_1 h_S_) main_v2 main_c
  main_v3
-- ==== Kernel.lean ====
abbrev S4194304x2 : Shape := ⟨2, ![4194304, 2]⟩
abbrev S32768x128x2 : Shape := ⟨3, ![32768, 128, 2]⟩
abbrev S32768x2x128 : Shape := ⟨3, ![32768, 2, 128]⟩
abbrev S2x1x1 : Shape := ⟨3, ![2, 1, 1]⟩
abbrev S1024x2x128 : Shape := ⟨3, ![1024, 2, 128]⟩
abbrev S1x1x1 : Shape := ⟨3, ![1, 1, 1]⟩
abbrev S1024x1x128 : Shape := ⟨3, ![1024, 1, 128]⟩
abbrev S1024x128 : Shape := ⟨2, ![1024, 128]⟩
abbrev S1x1024x128 : Shape := ⟨3, ![1, 1024, 128]⟩
abbrev S1 : Shape := ⟨1, ![1]⟩
abbrev S_ : Shape := ⟨0, ![]⟩

abbrev nBuf : Space → Nat
  | .hbm => 8
  | .vmem => 4
  | .smem => 0
  | _ => 0

abbrev bufTy : (tb : Table) → Fin (tcTables nBuf tb) → BufTy
  | .hbm, ⟨0, _⟩ => ⟨S4194304x2, .f32⟩
  | .hbm, ⟨1, _⟩ => ⟨S32768x128x2, .f32⟩
  | .hbm, ⟨2, _⟩ => ⟨S32768x2x128, .f32⟩
  | .hbm, ⟨3, _⟩ => ⟨S2x1x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S1024x2x128, .f32⟩
  | .local _ .vmem, ⟨1, _⟩ => ⟨S1024x2x128, .f32⟩
  | .local _ .vmem, ⟨2, _⟩ => ⟨S1x1x1, .f32⟩
  | .local _ .vmem, ⟨3, _⟩ => ⟨S1x1x1, .f32⟩
  | _, _ => ⟨S4194304x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x2x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  shapeCasts_S4194304x2_S32768x128x2 : S4194304x2.ShapeCasts S32768x128x2
  transposes_S32768x128x2_S32768x2x128_0_2_1 : S32768x128x2.Transposes [0, 2, 1] S32768x2x128
  inb_S1x1x1_S1x1x1_0_0_0 : ∀ a, (![0, 0, 0] : Fin 3 → Nat) a + S1x1x1.size a ≤ S1x1x1.size a
  h_S1x1x1 : 0 < S1x1x1.numel
  inb_S1024x2x128_S1024x2x128_0_0_0 : ∀ a, (![0, 0, 0] : Fin 3 → Nat) a + S1024x2x128.size a ≤ S1024x2x128.size a
  h_S1024x2x128 : 0 < S1024x2x128.numel
  shapeCasts_S1024x2x128_S1024x2x128 : S1024x2x128.ShapeCasts S1024x2x128
  slices_S1024x2x128_o0_0_0_S1024x1x128 : S1024x2x128.Slices ![0, 0, 0] S1024x1x128
  shapeCasts_S1024x1x128_S1024x128 : S1024x1x128.ShapeCasts S1024x128
  slices_S1024x2x128_o0_1_0_S1024x1x128 : S1024x2x128.Slices ![0, 1, 0] S1024x1x128
  shapeCasts_S1x1x1_S1x1x1 : S1x1x1.ShapeCasts S1x1x1
  shapeCasts_S1024x128_S1x1024x128 : S1024x128.ShapeCasts S1x1024x128
  reduces_S1x1024x128_S1 : S1x1024x128.Reduces [1, 2] S1
  shapeCasts_S1_S1x1x1 : S1.ShapeCasts S1x1x1
  inpos_S1x1x1_p0_0_0 : ∀ a, (![0, 0, 0] : Fin 3 → Nat) a < S1x1x1.size a
  reducesTo_S2x1x1_S_d0_1_2 : S2x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2x128.size a ≤ S32768x2x128.size a
  hwx0_0 : ∀ i : grid0.Coords, EltTy.bits .f32 = 32 ∨ (Rect.block (s := S32768x2x128) S1024x2x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1.size a ≤ S2x1x1.size a
  hwx0_1 : ∀ i : grid0.Coords, EltTy.bits .f32 = 32 ∨ (Rect.block (s := S2x1x1) S1x1x1.size (cc0_transform_1 i) (hinb0_1 i)).WholeWords (EltTy.packing .f32)

variable [Facts₀]

abbrev win0_0 : Pipeline.Window sig grid0 :=
  Pipeline.Window.ofSpec (Memref.whole main_v1) S1024x2x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x1x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4194304x2 : Shape := ⟨2, ![4194304, 2]⟩
abbrev S1x1 : Shape := ⟨2, ![1, 1]⟩
abbrev S512x2 : Shape := ⟨2, ![512, 2]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩
abbrev S_ : Shape := ⟨0, ![]⟩

abbrev nBuf : Space → Nat
  | .hbm => 3
  | .vmem => 3
  | .smem => 0
  | _ => 0

abbrev bufTy : (tb : Table) → Fin (tcTables nBuf tb) → BufTy
  | .hbm, ⟨0, _⟩ => ⟨S4194304x2, .f32⟩
  | .hbm, ⟨1, _⟩ => ⟨S1x1, .f32⟩
  | .hbm, ⟨2, _⟩ => ⟨S_, .f32⟩
  | .local _ .vmem, ⟨0, _⟩ => ⟨S512x2, .f32⟩
  | .local _ .vmem, ⟨1, _⟩ => ⟨S512x2, .f32⟩
  | .local _ .vmem, ⟨2, _⟩ => ⟨S1x1, .f32⟩
  | _, _ => ⟨S4194304x2, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![8192], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

class Facts₀ : Prop where
  inb_S1x1_S1x1_0_0 : ∀ a, (![0, 0] : Fin 2 → Nat) a + S1x1.size a ≤ S1x1.size a
  h_S1x1 : 0 < S1x1.numel
  inb_S512x2_S512x2_0_0 : ∀ a, (![0, 0] : Fin 2 → Nat) a + S512x2.size a ≤ S512x2.size a
  h_S512x2 : 0 < S512x2.numel
  reduces_S512x2_S512 : S512x2.Reduces [1] S512
  shapeCasts_S512_S512x1 : S512.ShapeCasts S512x1
  broadcasts_S512x1_S512x2 : S512x1.Broadcasts S512x2
  slices_S512x2_o0_1_S512x1 : S512x2.Slices ![0, 1] S512x1
  shapeCasts_S1x1_S1x1 : S1x1.ShapeCasts S1x1
  shapeCasts_S512x1_S1x512x1 : S512x1.ShapeCasts S1x512x1
  reduces_S1x512x1_S1 : S1x512x1.Reduces [1, 2] S1
  shapeCasts_S1_S1x1x1 : S1.ShapeCasts S1x1x1
  inpos_S1x1x1_p0_0_0 : ∀ a, (![0, 0, 0] : Fin 3 → Nat) a < S1x1x1.size a
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2.size a ≤ S4194304x2.size a
  hwx0_0 : ∀ i : grid0.Coords, EltTy.bits .f32 = 32 ∨ (Rect.block (s := S4194304x2) S512x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)

variable [Facts₀]

abbrev win0_0 : Pipeline.Window sig grid0 :=
  Pipeline.Window.ofSpec (Memref.whole main_arg0) S512x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== Proof.KPieces.lean ====
/-
  What one grid point of the kernel leaves in its one-element accumulator, as the body's arithmetic of the blocks.

  At the first point of a core's run (second grid coordinate zero) the body stores the zero block, reads it back and
  stores the block's partial sum added to it; at every other point it adds the block's partial sum to what the point
  before left. Both are the one payload of the body's last store, read at the zero block or at the carried value.
-/
import proofs.«173530_g2000306949564399_pallaspilot1_6_10_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Partial

open Cert.KernelIdeal Cert.KernelIdeal.Gen

variable {F : FTy → Type} [FloatOps F]

theorem hz3 : (![0, 0, 0] : Fin 3 → Nat) = fun _ => 0 := funext fun a => by fin_cases a <;> rfl

/-- A later point of a run: the carried value plus the block's partial sum. -/
theorem out_later (c : Dev nD) (i : grid0.Coords) (a2 : Memref sig .tc .vmem S1024x2x128 .f32) (h2 : a2.IsWhole)
    (a3 : Memref sig .tc .vmem S1x1x1 .f32) (h3 : a3.IsWhole) (hc : ¬cond0_0 i) (x : Vec F S1024x2x128 .f32) (xo : Vec F S1x1x1 .f32) :
    out0_B_1 c i a2 h2 a3 h3 hc x xo = k0_pay2 x xo := by
  unfold out0_B_1
  rw [View.read_writes_eq_canon _ _ _ (cover0_B_1 c i a2 h2 a3 h3 hc x xo)]
  unfold kernelRun0_B
  dsimp only
  rw [View.canon_unit_zero hz3]
  simp only [View.readAt_eq_ld, h2.read_unread, h3.read_unread, View.ld_unit_zero (S := S1024x2x128) hz3,
    View.ld_unit_zero (S := S1x1x1) hz3]

/-- The first point of a run: the zero block plus the block's partial sum. -/
theorem out_first (c : Dev nD) (i : grid0.Coords) (a2 : Memref sig .tc .vmem S1024x2x128 .f32) (h2 : a2.IsWhole)
    (a3 : Memref sig .tc .vmem S1x1x1 .f32) (h3 : a3.IsWhole) (hc : cond0_0 i) (x : Vec F S1024x2x128 .f32) :
    out0_A_1 c i a2 h2 a3 h3 hc x = k0_pay2 x (k0_pay1 (F := F)) := by
  unfold out0_A_1
  rw [View.read_writes_eq_canon _ _ _ (cover0_A_1 c i a2 h2 a3 h3 hc x)]
  unfold kernelRun0_A
  dsimp only
  sl_unfold_words
  rw [View.canon_cons_unit_zero (S := S1x1x1) hz3, View.readCov_unit_zero (S := S1x1x1) _ hz3]
  simp only [View.readAt_eq_ld, h2.read_unread, View.ld_unit_zero (S := S1024x2x128) hz3]

end Cert.KernelIdeal.Partial

end
-- ==== Proof.RowLoss.lean ====
/-
  The two per-row losses agree at real logits. For a pair (a, b) of reals, with d = a - b,
    max d 0 + log (1 + exp (0 - max d (-d)))
  and
    (max a b + log (exp (a - max a b) + exp (b - max a b))) - b
  are both log (1 + exp (a - b)): if b ≤ a then max a b = a and the second is
  a + log (1 + exp (-(a - b))) - b; if a ≤ b then max a b = b and the second is
  b + log (exp (a - b) + 1) - b. The statement is first proved over the reals and then carried
  to the extended reals, where exp and log of a coerced real are the real ones (the argument of
  each log is positive).
-/
import Mathlib.Analysis.SpecialFunctions.Log.Basic
import Mathlib.Data.EReal.Operations
import Idealize.ShloMosaic.PureOps.Ideal
import Idealize.ShloMosaic.PureOps.Ideal.Laws

noncomputable section

namespace RowLoss

open Idealize.ShloMosaic

/-- the kernel's per-row term -/
def kterm (a b : EReal) : EReal := max (a - b) 0 + Ideal.log1p (Ideal.exp (0 - max (a - b) (-(a - b))))

/-- the reference's per-row term -/
def rterm (a b : EReal) : EReal := (max a b + Ideal.log (Ideal.exp (a - max a b) + Ideal.exp (b - max a b))) - b

/-- The coercion of the reals into the extended reals commutes with max. -/
theorem coe_max (x y : ℝ) : ((max x y : ℝ) : EReal) = max (x : EReal) (y : EReal) :=
  EReal.coe_strictMono.monotone.map_max

/-- exp of a coerced real is the real exp. -/
theorem exp_coe (r : ℝ) : Ideal.exp (r : EReal) = ((Real.exp r : ℝ) : EReal) := rfl

/-- log of a coerced positive real is the real log. -/
theorem log_coe_pos {r : ℝ} (h : 0 < r) : Ideal.log (r : EReal) = ((Real.log r : ℝ) : EReal) := by
  show (if r ≤ 0 then (⊥ : EReal) else ((Real.log r : ℝ) : EReal)) = _
  rw [if_neg (not_le.mpr h)]

/-- The identity over the reals. -/
theorem real_eq (a b : ℝ) :
    max (a - b) 0 + Real.log (1 + Real.exp (0 - max (a - b) (-(a - b)))) =
      (max a b + Real.log (Real.exp (a - max a b) + Real.exp (b - max a b))) - b := by
  rcases le_total a b with h | h
  · have h1 : max (a - b) 0 = 0 := max_eq_right (by linarith)
    have h2 : max (a - b) (-(a - b)) = -(a - b) := max_eq_right (by linarith)
    have h3 : max a b = b := max_eq_right h
    have h4 : (0 : ℝ) - -(a - b) = a - b := by ring
    rw [h1, h2, h3, h4, sub_self, Real.exp_zero, add_comm (Real.exp (a - b)) 1]
    ring
  · have h1 : max (a - b) 0 = a - b := max_eq_left (by linarith)
    have h2 : max (a - b) (-(a - b)) = a - b := max_eq_left (by linarith)
    have h3 : max a b = a := max_eq_left h
    have h4 : (0 : ℝ) - (a - b) = b - a := by ring
    rw [h1, h2, h3, h4, sub_self, Real.exp_zero]
    ring

/-- The kernel's term at real logits is the coercion of its real form. -/
theorem kterm_coe (a b : ℝ) : kterm (a : EReal) (b : EReal) =
    ((max (a - b) 0 + Real.log (1 + Real.exp (0 - max (a - b) (-(a - b)))) : ℝ) : EReal) := by
  have hd : ((a : EReal) - (b : EReal)) = ((a - b : ℝ) : EReal) := (EReal.coe_sub a b).symm
  have hm0 : max ((a - b : ℝ) : EReal) 0 = ((max (a - b) 0 : ℝ) : EReal) := by
    rw [coe_max, EReal.coe_zero]
  have hab : max ((a - b : ℝ) : EReal) (-((a - b : ℝ) : EReal))
      = ((max (a - b) (-(a - b)) : ℝ) : EReal) := by
    rw [coe_max, EReal.coe_neg]
  have hs : (0 : EReal) - ((max (a - b) (-(a - b)) : ℝ) : EReal)
      = ((0 - max (a - b) (-(a - b)) : ℝ) : EReal) := by
    rw [EReal.coe_sub, EReal.coe_zero]
  have h1 : (1 : EReal) + ((Real.exp (0 - max (a - b) (-(a - b))) : ℝ) : EReal)
      = ((1 + Real.exp (0 - max (a - b) (-(a - b))) : ℝ) : EReal) := by
    rw [EReal.coe_add, EReal.coe_one]
  have hpos : 0 < 1 + Real.exp (0 - max (a - b) (-(a - b))) := by positivity
  unfold kterm Ideal.log1p
  rw [hd, hm0, hab, hs, exp_coe, h1, log_coe_pos hpos, ← EReal.coe_add]

/-- The reference's term at real logits is the coercion of its real form. -/
theorem rterm_coe (a b : ℝ) : rterm (a : EReal) (b : EReal) =
    (((max a b + Real.log (Real.exp (a - max a b) + Real.exp (b - max a b))) - b : ℝ) : EReal) := by
  have hm : max (a : EReal) (b : EReal) = ((max a b : ℝ) : EReal) := (coe_max a b).symm
  have ha : (a : EReal) - ((max a b : ℝ) : EReal) = ((a - max a b : ℝ) : EReal) :=
    (EReal.coe_sub a (max a b)).symm
  have hb : (b : EReal) - ((max a b : ℝ) : EReal) = ((b - max a b : ℝ) : EReal) :=
    (EReal.coe_sub b (max a b)).symm
  have hpos : 0 < Real.exp (a - max a b) + Real.exp (b - max a b) := by positivity
  unfold rterm
  rw [hm, ha, hb, exp_coe, exp_coe, ← EReal.coe_add, log_coe_pos hpos, ← EReal.coe_add,
    ← EReal.coe_sub]

/-- At real logits the kernel's per-row term is the reference's. -/
theorem kterm_eq_rterm (a b : ℝ) : kterm (a : EReal) (b : EReal) = rterm (a : EReal) (b : EReal) := by
  rw [kterm_coe, rterm_coe, real_eq]

end RowLoss

end
-- ==== Proof.KBlock.lean ====
/-
  The kernel's one payload at the ideal instance: the carried value plus the sum, over the 1024 × 128 entries of the
  block, of the softplus of the difference of the entry's two class planes — max (d, 0) + log (1 + exp (−|d|)) with
  d = x₀ − x₁. Plane `cls` of group `g` at lane `l` is the block at (g, cls, l); the two slices and the casts around
  them only re-bracket indices, and the reduction over both axes of the flattened [1, 1024, 128] value into one element
  is the sum over all its indices.
-/
import proofs.«173530_g2000306949564399_pallaspilot1_6_10_alg».proof.Proof.Gen.KernelIdeal.Skeleton
import proofs.«173530_g2000306949564399_pallaspilot1_6_10_alg».proof.Proof.RowLoss
import Idealize.ShloMosaic.PureOps.Ideal.Laws
import Idealize.ShloMosaic.Lib.ValueIdx
import Idealize.ShloMosaic.Lib.Pipeline.Value

noncomputable section

open Idealize.ShloMosaic

namespace Cert.KernelIdeal.Partial

open Cert.KernelIdeal Cert.KernelIdeal.Gen ValueIdx

/-- Where entry `i` of the flattened block takes class `cls` from: group `i 1`, plane `cls`, lane `i 2`. -/
def src (cls : Fin 2) (i : S1x1024x128.Idx) : S1024x2x128.Idx :=
  ix3 (⟨(i 1).val, (i 1).isLt⟩ : Fin 1024) cls (⟨(i 2).val, (i 2).isLt⟩ : Fin 128)

/-- Plane 0 sliced out of the block and its unit axis dropped, at (g, l): the block at (g, 0, l). -/
theorem plane0_read (x : Vec Ideal S1024x2x128 .f32) (g : Fin 1024) (l : Fin 128) :
    shapeCast S1024x128 (extractStridedSlice S1024x1x128 ![0, 0, 0] x slices_S1024x2x128_o0_0_0_S1024x1x128)
      shapeCasts_S1024x1x128_S1024x128 (ix2 g l) = x (ix3 g 0 l) := by
  refine (shapeCast_apply _ _ (ix2 g l) (ix3 g (0 : Fin 1) l) ?_).trans ?_
  · rw [Shape.rowMajor_val_two, Shape.rowMajor_val_three]
    show (g.val * 1 + 0) * 128 + l.val = g.val * 128 + l.val
    omega
  · refine extractStridedSlice_apply _ _ _ _ (ix3 g 0 l) fun a => ?_
    match a with
    | ⟨0, _⟩ => show g.val = 0 + g.val; omega
    | ⟨1, _⟩ => show 0 = 0 + 0; rfl
    | ⟨2, _⟩ => show l.val = 0 + l.val; omega

/-- Plane 1 likewise: the block at (g, 1, l). -/
theorem plane1_read (x : Vec Ideal S1024x2x128 .f32) (g : Fin 1024) (l : Fin 128) :
    shapeCast S1024x128 (extractStridedSlice S1024x1x128 ![0, 1, 0] x slices_S1024x2x128_o0_1_0_S1024x1x128)
      shapeCasts_S1024x1x128_S1024x128 (ix2 g l) = x (ix3 g 1 l) := by
  refine (shapeCast_apply _ _ (ix2 g l) (ix3 g (0 : Fin 1) l) ?_).trans ?_
  · rw [Shape.rowMajor_val_two, Shape.rowMajor_val_three]
    show (g.val * 1 + 0) * 128 + l.val = g.val * 128 + l.val
    omega
  · refine extractStridedSlice_apply _ _ _ _ (ix3 g 1 l) fun a => ?_
    match a with
    | ⟨0, _⟩ => show g.val = 0 + g.val; omega
    | ⟨1, _⟩ => show 1 = 1 + 0; rfl
    | ⟨2, _⟩ => show l.val = 0 + l.val; omega

/-- The zero block the first point of a run stores. -/
theorem pay1_apply (j : S1x1x1.Idx) : k0_pay1 (F := Ideal) j = 0 := Ideal.ofBits_zero_f32

/-- The last store's payload at its one index: the carried value plus the block's sum of per-entry terms. -/
theorem pay2_apply (x : Vec Ideal S1024x2x128 .f32) (xo : Vec Ideal S1x1x1 .f32) (j : S1x1x1.Idx) :
    k0_pay2 x xo j = xo j + ∑ i : S1x1024x128.Idx, RowLoss.kterm (x (src 0 i)) (x (src 1 i)) := by
  unfold k0_pay2
  dsimp only
  refine congrArg₂ (· + ·) (congrFun (shapeCast_self xo _) j) ?_
  refine (shapeCast_apply _ shapeCasts_S1_S1x1x1 _ (ix1 (0 : Fin 1)) ?_).trans ?_
  · rw [Shape.rowMajor_val_one, Shape.rowMajor_val_three]
    rfl
  refine (Ideal.multiReduction_add_total _ _ _ (by decide) _ _ _).trans ?_
  refine Finset.sum_congr rfl fun i _ => ?_
  have hi0 : (i 0).val = 0 := by have h : (i 0).val < 1 := (i 0).isLt; omega
  refine (shapeCast_apply _ _ i (ix2 (⟨(i 1).val, (i 1).isLt⟩ : Fin 1024) (⟨(i 2).val, (i 2).isLt⟩ : Fin 128)) ?_).trans ?_
  · rw [Shape.rowMajor_val_two, Shape.rowMajor_val_three]
    show (i 1).val * 128 + (i 2).val = ((i 0).val * 1024 + (i 1).val) * 128 + (i 2).val
    rw [hi0]; omega
  simp only [shapeCast_self, addf_apply, maximumf_apply, subf_apply, broadcast_apply, log1p, exp, absf]
  rw [plane0_read x, plane1_read x]
  show max (x (src 0 i) - x (src 1 i)) (Ideal.ofBits .f32 0x00000000#32)
      + Ideal.log1p (Ideal.exp (Ideal.ofBits .f32 0x00000000#32 - max (x (src 0 i) - x (src 1 i)) (-(x (src 0 i) - x (src 1 i)))))
    = RowLoss.kterm (x (src 0 i)) (x (src 1 i))
  rw [Ideal.ofBits_zero_f32]
  rfl

end Cert.KernelIdeal.Partial

end
-- ==== Proof.Rows.lean ====
/-
  The logits as rows: `x` is an array of 4194304 rows of two classes. `colAt x c r` is class `c` of row `r`, as a
  function of the natural `r` (zero past the last row, a value no sum below ever reads); `rowsSum term x a b` is the
  sum over the rows `a ≤ r < b` of a per-row term of the row's two logits. Both programs compute
  `rowsSum term x 0 4194304` times one constant, each with its own per-row term and its own grouping of the rows.
-/
import Idealize.ShloMosaic.Lib.ValueIdx
import Mathlib.Algebra.BigOperators.Intervals

noncomputable section

open Idealize.ShloMosaic

namespace Rows

/-- The logits array at the ideal instance: extended reals indexed by (row, class). -/
abbrev Logits := (⟨2, ![4194304, 2]⟩ : Shape).Idx → EReal

/-- Class `c` of row `r`. -/
def colAt (x : Logits) (c : Fin 2) (r : ℕ) : EReal :=
  if h : r < 4194304 then x (ValueIdx.ix2 ⟨r, h⟩ c) else 0

/-- An index whose row coordinate is `r` and class coordinate is `c` reads `colAt x c r`. -/
theorem colAt_eq (x : Logits) (c : Fin 2) (r : ℕ) (k : (⟨2, ![4194304, 2]⟩ : Shape).Idx)
    (h0 : (k 0).val = r) (h1 : (k 1).val = c.val) : x k = colAt x c r := by
  subst h0
  unfold colAt
  rw [dif_pos (ValueIdx.idx2_lt0 k)]
  congr 1
  funext a
  match a with
  | ⟨0, _⟩ => rfl
  | ⟨1, _⟩ => exact Fin.ext h1

/-- The per-row term summed over the rows `a ≤ r < b`. -/
def rowsSum (term : EReal → EReal → EReal) (x : Logits) (a b : ℕ) : EReal :=
  ∑ r ∈ Finset.Ico a b, term (colAt x 0 r) (colAt x 1 r)

/-- Consecutive intervals of rows join. -/
theorem rowsSum_add (term : EReal → EReal → EReal) (x : Logits) {a b c : ℕ} (hab : a ≤ b) (hbc : b ≤ c) :
    rowsSum term x a b + rowsSum term x b c = rowsSum term x a c :=
  Finset.sum_Ico_consecutive _ hab hbc

/-- Two per-row terms that agree on every row below `b` have the same sums there. -/
theorem rowsSum_congr (f g : EReal → EReal → EReal) (x : Logits) (a b : ℕ)
    (h : ∀ r, r < b → f (colAt x 0 r) (colAt x 1 r) = g (colAt x 0 r) (colAt x 1 r)) :
    rowsSum f x a b = rowsSum g x a b :=
  Finset.sum_congr rfl fun r hr => h r (Finset.mem_Ico.mp hr).2

end Rows
-- ==== Proof.KInput.lean ====
/-
  What the kernel's input window reads. The host re-lays the logits [4194304, 2] as [32768, 128, 2] and transposes the
  last two axes, so the array the kernel reads has, at (G, cls, l), class `cls` of row `128·G + l`. The block of grid
  point `t` holds the groups `1024·t … 1024·t + 1023`: its entry (g, cls, l) is class `cls` of row
  `131072·t + 128·g + l`, so the points' blocks are consecutive intervals of 131072 rows.
-/
import proofs.«173530_g2000306949564399_pallaspilot1_6_10_alg».proof.Proof.Gen.KernelIdeal.Frame
import proofs.«173530_g2000306949564399_pallaspilot1_6_10_alg».proof.Proof.Rows
import Idealize.ShloMosaic.Lib.ValueIdx
import Idealize.ShloMosaic.Lib.Pipeline.Value
import Idealize.ShloMosaic.Lib.StableHlo.Run

set_option maxRecDepth 16384

noncomputable section

open Idealize.ShloMosaic Idealize.ShloMosaic.TcCoe Idealize.SL.Sem

namespace Cert.KernelIdeal.Partial

open Cert.KernelIdeal Cert.KernelIdeal.Gen ValueIdx

variable (m : (ℓ : Loc nD τ sig) → Buf (Elt Ideal) ℓ)

/-- The input window's block index at point `t` is `(t, 0, 0)`: the two grid coordinates (i, j) of `t = 16·i + j` enter
    only through `16·i + j`. -/
theorem in_index : ∀ t : Fin cfg0.N, win0_0.index t (0 : Fin 3) = t.val ∧ win0_0.index t (1 : Fin 3) = 0 ∧ win0_0.index t (2 : Fin 3) = 0 :=
  (by decide +kernel : ∀ t : Fin grid0.N, win0_0.index t (0 : Fin 3) = t.val ∧ win0_0.index t (1 : Fin 3) = 0 ∧ win0_0.index t (2 : Fin 3) = 0)

/-- The array the region reads: the logits re-laid as [32768, 128, 2] with the last two axes exchanged. -/
theorem relaid (c : Dev nD) : (V m c main_v1 : S32768x2x128.Idx → EReal)
    = transpose S32768x2x128 [0, 2, 1] (shapeCast S32768x128x2 (m ((c : Thread nD τ).loc main_arg0)) shapeCasts_S4194304x2_S32768x128x2) transposes_S32768x128x2_S32768x2x128_0_2_1 := by
  show StableHlo.after hostOps0 (fun b => m (c, b)) (Proc.devRef .tc main_v1) = _
  after_results
  rfl

/-- The re-laid array at (G, cls, l) is class `cls` of row `128·G + l`. -/
theorem relaid_apply (x : Rows.Logits) (j : S32768x2x128.Idx) (cls : Fin 2) (r : ℕ) (h1 : (j 1).val = cls.val)
    (hr : (j 0).val * 128 + (j 2).val = r) :
    transpose S32768x2x128 [0, 2, 1] (shapeCast S32768x128x2 x shapeCasts_S4194304x2_S32768x128x2) transposes_S32768x128x2_S32768x2x128_0_2_1 j
      = Rows.colAt x cls r := by
  have hj0 : (j 0).val < 32768 := (j 0).isLt
  have hj2 : (j 2).val < 128 := (j 2).isLt
  refine (transpose_apply _ _ _ j (ix3 (⟨(j 0).val, hj0⟩ : Fin 32768) (⟨(j 2).val, hj2⟩ : Fin 128) cls) fun b => ?_).trans ?_
  · match b with
    | ⟨0, _⟩ => rfl
    | ⟨1, _⟩ => exact h1.symm
    | ⟨2, _⟩ => rfl
  have hrow : r < 4194304 := by omega
  refine (shapeCast_apply _ _ _ (ix2 (⟨r, hrow⟩ : Fin 4194304) cls) ?_).trans ?_
  · rw [Shape.rowMajor_val_two, Shape.rowMajor_val_three]
    show r * 2 + cls.val = ((j 0).val * 128 + (j 2).val) * 2 + cls.val
    rw [hr]
  · exact Rows.colAt_eq x cls r _ rfl rfl

/-- Entry (g, cls, l) of the block of point `t`: class `cls` of row `131072·t + 128·g + l`. -/
theorem iblk_read (c : Dev nD) (t : Fin cfg0.N) (g : Fin 1024) (cls : Fin 2) (l : Fin 128) :
    (iblk m c 0 t : Vec Ideal S1024x2x128 .f32) (ix3 g cls l)
      = Rows.colAt (m ((c : Thread nD τ).loc main_arg0)) cls (t.val * 131072 + g.val * 128 + l.val) := by
  unfold iblk
  rw [View.read_apply]
  show V m c main_v1 (((cfg0.win 0).blk t).view.emb (ix3 g cls l)) = _
  refine (congrFun (relaid m c) _).trans ?_
  refine relaid_apply _ _ cls _ ?_ ?_
  · show win0_0.index t 1 * 2 + 1 * cls.val = cls.val
    rw [(in_index t).2.1]; omega
  · show (win0_0.index t 0 * 1024 + 1 * g.val) * 128 + (win0_0.index t 2 * 128 + 1 * l.val) = _
    rw [(in_index t).1, (in_index t).2.2]; omega

end Cert.KernelIdeal.Partial

end
-- ==== Proof.LibFlatSum.lean ====
/-
  Sums over all multi-indices of a shape, re-indexed by row-major position.

  A function of an index that depends on the index only through its row-major position `p` — as every value read
  through reshapes does — sums, over all indices of the shape, to the sum of the function over the positions
  `0 … numel - 1`; shifted by a base, to the sum over the interval `[base, base + numel)` of the naturals. Consecutive
  intervals then join by `Finset.sum_Ico_consecutive`, which is how a sum accumulated block after block becomes one sum
  over a range. Holds in any commutative additive monoid: no finiteness is needed on the extended reals.
-/
import Idealize.ShloMosaic.Shape
import Mathlib.Algebra.BigOperators.Fin
import Mathlib.Algebra.BigOperators.Intervals

open Idealize.ShloMosaic

namespace FlatSum

variable {β : Type*} [AddCommMonoid β]

/-- The sum over a shape's indices of a function of the row-major position is the sum over the positions. -/
theorem sum_idx_eq_sum_range (s : Shape) (f : ℕ → β) :
    ∑ i : s.Idx, f (s.rowMajor i).val = ∑ r ∈ Finset.range s.numel, f r := by
  rw [← Fin.sum_univ_eq_sum_range]
  exact Equiv.sum_comp s.rowMajor (fun q => f q.val)

/-- The same from a base position: the sum over the interval of `numel` naturals starting at `base`. -/
theorem sum_idx_eq_sum_Ico (s : Shape) (f : ℕ → β) (base : ℕ) :
    ∑ i : s.Idx, f (base + (s.rowMajor i).val) = ∑ r ∈ Finset.Ico base (base + s.numel), f r := by
  rw [Finset.sum_Ico_eq_sum_range, Nat.add_sub_cancel_left]
  exact sum_idx_eq_sum_range s (fun r => f (base + r))

/-- When each index's summand is the function at `base` plus that index's position (`h`), the sum over the shape is
    the sum over the interval. -/
theorem sum_idx_of_pos (s : Shape) (g : s.Idx → β) (f : ℕ → β) (base n : ℕ) (hn : s.numel = n)
    (h : ∀ i : s.Idx, g i = f (base + (s.rowMajor i).val)) :
    ∑ i : s.Idx, g i = ∑ r ∈ Finset.Ico base (base + n), f r := by
  rw [← hn, ← sum_idx_eq_sum_Ico]
  exact Finset.sum_congr rfl fun i _ => h i

end FlatSum
-- ==== Proof.KAcc.lean ====
/-
  The kernel's accumulator, point by point. A core's run is sixteen consecutive points; after point `n` of the grid
  the one-element accumulator holds the sum of the per-row softplus terms over all rows of the blocks read since the
  run began: rows `2097152·(n / 16) ≤ r < 131072·(n + 1)`. By induction on the point: the first point of a run stores
  zero plus its block's sum, each later point adds its block's sum, and consecutive intervals of rows join.
-/
import proofs.«173530_g2000306949564399_pallaspilot1_6_10_alg».proof.Proof.KPieces
import proofs.«173530_g2000306949564399_pallaspilot1_6_10_alg».proof.Proof.KBlock
import proofs.«173530_g2000306949564399_pallaspilot1_6_10_alg».proof.Proof.KInput
import proofs.«173530_g2000306949564399_pallaspilot1_6_10_alg».proof.Proof.LibFlatSum

set_option maxRecDepth 16384

noncomputable section

open Idealize.ShloMosaic Idealize.ShloMosaic.TcCoe Idealize.SL.Sem

namespace Cert.KernelIdeal.Partial

open Cert.KernelIdeal Cert.KernelIdeal.Gen ValueIdx

variable (m : (ℓ : Loc nD τ sig) → Buf (Elt Ideal) ℓ)

/-- The logits on core `c`. -/
abbrev logits (c : Dev nD) : Rows.Logits := m ((c : Thread nD τ).loc main_arg0)

/-- The block of point `t` summed entry by entry is the per-row term summed over the point's 131072 rows. -/
theorem block_sum (c : Dev nD) (t : Fin cfg0.N) :
    ∑ i : S1x1024x128.Idx, RowLoss.kterm ((iblk m c 0 t : Vec Ideal S1024x2x128 .f32) (src 0 i)) ((iblk m c 0 t : Vec Ideal S1024x2x128 .f32) (src 1 i))
      = Rows.rowsSum RowLoss.kterm (logits m c) (t.val * 131072) ((t.val + 1) * 131072) := by
  have e : (t.val + 1) * 131072 = t.val * 131072 + 131072 := by omega
  rw [e]
  refine FlatSum.sum_idx_of_pos S1x1024x128 _ (fun r => RowLoss.kterm (Rows.colAt (logits m c) 0 r) (Rows.colAt (logits m c) 1 r))
    (t.val * 131072) 131072 (by decide +kernel) fun i => ?_
  have hi0 : (i 0).val = 0 := by have h : (i 0).val < 1 := (i 0).isLt; omega
  have hpos : (S1x1024x128.rowMajor i).val = (i 1).val * 128 + (i 2).val := by
    rw [Shape.rowMajor_val_three]
    show ((i 0).val * 1024 + (i 1).val) * 128 + (i 2).val = _
    rw [hi0]; omega
  show RowLoss.kterm ((iblk m c 0 t : Vec Ideal S1024x2x128 .f32) (ix3 _ 0 _)) ((iblk m c 0 t : Vec Ideal S1024x2x128 .f32) (ix3 _ 1 _)) = _
  rw [iblk_read m c t _ 0 _, iblk_read m c t _ 1 _, hpos]
  show RowLoss.kterm (Rows.colAt _ 0 (t.val * 131072 + (i 1).val * 128 + (i 2).val)) (Rows.colAt _ 1 (t.val * 131072 + (i 1).val * 128 + (i 2).val)) = _
  rw [Nat.add_assoc]

/-- After point `n` the accumulator holds the per-row terms summed over the rows read since the run of `n` began. -/
theorem acc_eq (c : Dev nD) : ∀ (n : ℕ) (h : n < cfg0.N) (j : S1x1x1.Idx),
    outsAt0 m c n h j = Rows.rowsSum RowLoss.kterm (logits m c) (n / 16 * 2097152) ((n + 1) * 131072)
  | 0, h, j => by
    rw [outsAt0_A m c ⟨0, h⟩ rfl, out_first, pay2_apply, pay1_apply, zero_add, block_sum]
    show Rows.rowsSum _ _ (0 * 131072) ((0 + 1) * 131072) = Rows.rowsSum _ _ (0 / 16 * 2097152) ((0 + 1) * 131072)
    norm_num
  | n + 1, h, j => by
    by_cases h0 : (n + 1) % 16 = 0
    · rw [outsAt0_A m c ⟨n + 1, h⟩ h0, out_first, pay2_apply, pay1_apply, zero_add, block_sum]
      show Rows.rowsSum _ _ ((n + 1) * 131072) _ = _
      rw [show (n + 1) / 16 * 2097152 = (n + 1) * 131072 by omega]
    · rw [outsAt0_B m c ⟨n + 1, h⟩ h0, out_later, pay2_apply, block_sum]
      show outsAt0 m c n _ j + Rows.rowsSum _ _ ((n + 1) * 131072) ((n + 1 + 1) * 131072) = _
      rw [acc_eq c n _ j, show (n + 1) / 16 = n / 16 by omega]
      exact Rows.rowsSum_add _ _ (by omega) (by omega)

end Cert.KernelIdeal.Partial

end
-- ==== Proof.KFinal.lean ====
/-
  The kernel's two partial sums. The output array has one element per core's run; run `i` writes its accumulator
  back once, after its last point `16·i + 15`, into block (i, 0, 0). So after the region the array holds, at (i, 0, 0),
  the per-row terms summed over the rows `2097152·i ≤ r < 2097152·(i + 1)`.
-/
import proofs.«173530_g2000306949564399_pallaspilot1_6_10_alg».proof.Proof.KAcc

set_option maxRecDepth 16384

noncomputable section

open Idealize.ShloMosaic Idealize.ShloMosaic.TcCoe Idealize.SL.Sem
open Idealize.ShloMosaic.Pipeline (Dat)

namespace Cert.KernelIdeal.Partial

open Cert.KernelIdeal Cert.KernelIdeal.Gen ValueIdx

variable (m : (ℓ : Loc nD τ sig) → Buf (Elt Ideal) ℓ)

/-- The partial sums: half of the rows each. -/
def partials (c : Dev nD) : S2x1x1.Idx → EReal := fun k =>
  Rows.rowsSum RowLoss.kterm (logits m c) ((k 0).val * 2097152) (((k 0).val + 1) * 2097152)

/-- The partial sum at an index whose first coordinate is `q`. -/
theorem partials_apply (c : Dev nD) (k : S2x1x1.Idx) (q : ℕ) (h : (k 0).val = q) :
    partials m c k = Rows.rowsSum RowLoss.kterm (logits m c) (q * 2097152) ((q + 1) * 2097152) := by
  subst h
  unfold partials
  rfl

/-- The output window's block index at point `t = 16·i + j` is `(i, 0, 0)`. -/
theorem out_index : ∀ t : Fin cfg0.N, win0_1.index t (0 : Fin 3) = t.val / 16 ∧ win0_1.index t (1 : Fin 3) = 0 ∧ win0_1.index t (2 : Fin 3) = 0 :=
  (by decide +kernel : ∀ t : Fin grid0.N, win0_1.index t (0 : Fin 3) = t.val / 16 ∧ win0_1.index t (1 : Fin 3) = 0 ∧ win0_1.index t (2 : Fin 3) = 0)

/-- What a run's last point writes back is its block of the partial sums. -/
theorem flushed_eq (c : Dev nD) (t : Fin cfg0.N) (hf : (cfg0.win 1).flush t = true) :
    (dats m 0 c).flushed 1 t = ((cfg0.win 1).blk t).view.read (Elt Ideal) (partials m c) := by
  show (cfg0.win 1).cut (grid0.coords t) ((dats m 0 c).after 1 t) = _
  rw [after0_1]
  have h15 : t.val % 16 = 15 := (flush0_1 t).mp hf
  funext y
  rw [View.read_apply, cast_eq]
  show outsAt0 m c t.val t.isLt y = _
  rw [acc_eq]
  have hy : (y 0).val < 1 := (y 0).isLt
  have e : ((((cfg0.win 1).blk t).view.emb y : S2x1x1.Idx) 0).val = t.val / 16 := by
    show win0_1.index t (0 : Fin 3) * 1 + 1 * (y 0).val = _
    rw [(out_index t).1]; omega
  rw [partials_apply m c _ _ e, show (t.val + 1) * 131072 = (t.val / 16 + 1) * 2097152 by omega]

/-- An index of the array is in point `t`'s block iff each coordinate is in the block's range on its axis. -/
theorem mem_blk (t : Fin cfg0.N) (i : S2x1x1.Idx) :
    i ∈ ((cfg0.win 1).blk t).view.set ↔ ∀ a : Fin 3, win0_1.index t a * S1x1x1.size a ≤ (i a).val ∧ (i a).val < win0_1.index t a * S1x1x1.size a + S1x1x1.size a := by
  show i ∈ ((View.whole main_v2).slice (win0_1.rect t)).set ↔ _
  rw [View.set_slice_whole, Rect.mem_set_unit]
  exact Iff.rfl

/-- So the array after the region is the partial sums: element `i` is in the block run `i`'s last point writes. -/
theorem final (c : Dev nD) : (dats m 0 c).arrAt 1 cfg0.N = partials m c :=
  (dats m 0 c).arrAt_eq_of_cover 1 (partials m c) (flushed_eq m c) fun i => by
    have hi0 : (i 0).val < 2 := (i 0).isLt
    have hi1 : (i 1).val < 1 := (i 1).isLt
    have hi2 : (i 2).val < 1 := (i 2).isLt
    have hN : cfg0.N = 32 := N_0
    refine ⟨⟨(i 0).val * 16 + 15, by omega⟩, (flush0_1 _).mpr (by show ((i 0).val * 16 + 15) % 16 = 15; omega), ?_⟩
    rw [mem_blk]
    obtain ⟨e0, e1, e2⟩ := out_index ⟨(i 0).val * 16 + 15, by omega⟩
    intro a
    match a with
    | ⟨0, _⟩ =>
      show win0_1.index _ (0 : Fin 3) * 1 ≤ (i 0).val ∧ (i 0).val < win0_1.index _ (0 : Fin 3) * 1 + 1
      rw [e0]; show ((i 0).val * 16 + 15) / 16 * 1 ≤ (i 0).val ∧ (i 0).val < ((i 0).val * 16 + 15) / 16 * 1 + 1; omega
    | ⟨1, _⟩ =>
      show win0_1.index _ (1 : Fin 3) * 1 ≤ (i 1).val ∧ (i 1).val < win0_1.index _ (1 : Fin 3) * 1 + 1
      rw [e1]; omega
    | ⟨2, _⟩ =>
      show win0_1.index _ (2 : Fin 3) * 1 ≤ (i 2).val ∧ (i 2).val < win0_1.index _ (2 : Fin 3) * 1 + 1
      rw [e2]; omega

end Cert.KernelIdeal.Partial

end
-- ==== Proof.KRun.lean ====
/-
  The kernel's result. After the region the host adds the two partial sums from zero and multiplies by the constant:
  the two halves of the rows join into the sum over all 4194304 rows, so the result is the per-row softplus terms summed
  over all rows times the constant. The argument array is left as launched.
-/
import proofs.«173530_g2000306949564399_pallaspilot1_6_10_alg».proof.Proof.KFinal
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.Partial

open Cert.KernelIdeal Cert.KernelIdeal.Gen ValueIdx

variable (m : (ℓ : Loc nD τ sig) → Buf (Elt Ideal) ℓ)

/-- The kernel's value: the per-row terms summed over all rows, times the constant. -/
def mean (c : Dev nD) : EReal :=
  Rows.rowsSum RowLoss.kterm (logits m c) 0 4194304 * Ideal.ofBits .f32 0x34800000#32

/-- The two partial sums add up to the sum over all rows. -/
theorem partials_sum (c : Dev nD) :
    ∑ k : S2x1x1.Idx, partials m c k = Rows.rowsSum RowLoss.kterm (logits m c) 0 4194304 := by
  have hk : ∀ k : S2x1x1.Idx, partials m c k
      = (fun r => Rows.rowsSum RowLoss.kterm (logits m c) (r * 2097152) ((r + 1) * 2097152)) (S2x1x1.rowMajor k).val := by
    intro k
    have h1 : (k 1).val < 1 := (k 1).isLt
    have h2 : (k 2).val < 1 := (k 2).isLt
    have e : (k 0).val = (S2x1x1.rowMajor k).val := by
      rw [Shape.rowMajor_val_three]
      show _ = ((k 0).val * 1 + (k 1).val) * 1 + (k 2).val
      omega
    exact partials_apply m c k _ e
  refine (Finset.sum_congr rfl fun k _ => hk k).trans ((FlatSum.sum_idx_eq_sum_range S2x1x1
    (fun r => Rows.rowsSum RowLoss.kterm (logits m c) (r * 2097152) ((r + 1) * 2097152))).trans ?_)
  rw [show S2x1x1.numel = 2 by decide +kernel, Finset.sum_range_succ, Finset.sum_range_one]
  norm_num
  exact Rows.rowsSum_add _ _ (by norm_num) (by norm_num)

/-- The host operations after the region: the partial sums added from zero, times the constant. -/
theorem tail_eq (c : Dev nD) :
    Pipeline.afterTail₀ cfgs (dats m) 0 (V0 m) [hostOps1] c main_v4 = fun _ => mean m c := by
  unfold Pipeline.afterTail₀
  show StableHlo.after hostOps1 _ (Proc.devRef .tc main_v4) = _
  after_results
  have hA : Pipeline.withArrays spec0 c (V0 m c) (fun w => (dats m 0 c).arrAt w cfg0.N) (Proc.devRef .tc main_v2)
      = partials m c :=
    (Pipeline.withArrays_arr spec0 launch0.win.arr_inj c _ _ 1).trans (final m c)
  funext j
  show Ideal.hostReduceAdd reducesTo_S2x1x1_S_d0_1_2
      (Pipeline.withArrays spec0 c (V0 m c) (fun w => (dats m 0 c).arrAt w cfg0.N) (Proc.devRef .tc main_v2))
      (Ideal.ofBits .f32 0x00000000#32) j * Ideal.ofBits .f32 0x34800000#32 = _
  rw [hA, Ideal.hostReduceAdd_total _ (fun b => b.elim0), Ideal.ofBits_zero_f32, zero_add, partials_sum]
  rfl

/-- The run, read: the scalar result at the kernel's value, the argument unchanged. -/
theorem run (ρ : Dev nD → PrngReg) : θ_run defs (onTc (τ := τ) (main (F := Ideal))) ⟨m, fun _ => 0, ρ⟩ fun r => ∀ c : Dev nD,
      r.2.mem ((c : Thread nD τ).loc main_v4) = (fun _ => mean m c)
      ∧ r.2.mem ((c : Thread nD τ).loc main_arg0) = m ((c : Thread nD τ).loc main_arg0) :=
  (θ_run defs _ _).mono (fun r h c =>
      ⟨((h c).2 main_v4 (Pipeline.mem_restRefs_of main_v4 (by decide) (by decide))).trans (tail_eq m c),
        ((h c).2 main_arg0 (Pipeline.mem_restRefs_of main_arg0 (by decide) (by decide))).trans (W_main_arg0 m (dats m) c)⟩)
    (run_main m ρ)

end Cert.KernelIdeal.Partial

end
-- ==== Proof.RPieces.lean ====
/-
  What one grid point of the reference leaves in its one-element accumulator, as the body's arithmetic of the blocks.

  At the first point the body stores the zero block, reads it back and stores the block's sum added to it; at a middle
  point it adds the block's sum to what the point before left; at the last point it does the same, reads the result
  back and stores it scaled by the constant. Each is a payload of the body's stores, read at the zero block or at the
  carried value.
-/
import proofs.«173530_g2000306949564399_pallaspilot1_6_10_alg».proof.Proof.Gen.ReferenceIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.ReferenceIdeal.Partial

open Cert.ReferenceIdeal Cert.ReferenceIdeal.Gen

variable {F : FTy → Type} [FloatOps F]

theorem hz2 : (![0, 0] : Fin 2 → Nat) = fun _ => 0 := funext fun a => by fin_cases a <;> rfl

/-- A middle point: the carried value plus the block's sum. -/
theorem out_middle (c : Dev nD) (i : grid0.Coords) (a1 : Memref sig .tc .vmem S512x2 .f32) (h1 : a1.IsWhole)
    (a2 : Memref sig .tc .vmem S1x1 .f32) (h2 : a2.IsWhole) (hc0 : ¬cond0_0 i) (hc1 : ¬cond0_1 i)
    (x : Vec F S512x2 .f32) (xo : Vec F S1x1 .f32) :
    out0_B_1 c i a1 h1 a2 h2 hc0 hc1 x xo = k0_pay2 x xo := by
  unfold out0_B_1
  rw [View.read_writes_eq_canon _ _ _ (cover0_B_1 c i a1 h1 a2 h2 hc0 hc1 x xo)]
  unfold kernelRun0_B
  dsimp only
  rw [View.canon_unit_zero hz2]
  simp only [View.readAt_eq_ld, h1.read_unread, h2.read_unread, View.ld_unit_zero (S := S512x2) hz2,
    View.ld_unit_zero (S := S1x1) hz2]

/-- The first point: the zero block plus the block's sum. -/
theorem out_first (c : Dev nD) (i : grid0.Coords) (a1 : Memref sig .tc .vmem S512x2 .f32) (h1 : a1.IsWhole)
    (a2 : Memref sig .tc .vmem S1x1 .f32) (h2 : a2.IsWhole) (hc0 : cond0_0 i) (hc1 : ¬cond0_1 i)
    (x : Vec F S512x2 .f32) :
    out0_A_1 c i a1 h1 a2 h2 hc0 hc1 x = k0_pay2 x (k0_pay1 (F := F)) := by
  unfold out0_A_1
  rw [View.read_writes_eq_canon _ _ _ (cover0_A_1 c i a1 h1 a2 h2 hc0 hc1 x)]
  unfold kernelRun0_A
  dsimp only
  sl_unfold_words
  rw [View.canon_cons_unit_zero (S := S1x1) hz2, View.readCov_unit_zero (S := S1x1) _ hz2]
  simp only [View.readAt_eq_ld, h1.read_unread, h2.read_unread, View.ld_unit_zero (S := S512x2) hz2,
    View.ld_unit_zero (S := S1x1) hz2]

/-- The last point: the carried value plus the block's sum, scaled by the constant. -/
theorem out_last (c : Dev nD) (i : grid0.Coords) (a1 : Memref sig .tc .vmem S512x2 .f32) (h1 : a1.IsWhole)
    (a2 : Memref sig .tc .vmem S1x1 .f32) (h2 : a2.IsWhole) (hc0 : ¬cond0_0 i) (hc1 : cond0_1 i)
    (x : Vec F S512x2 .f32) (xo : Vec F S1x1 .f32) :
    out0_C_1 c i a1 h1 a2 h2 hc0 hc1 x xo = k0_pay3 (k0_pay2 x xo) := by
  unfold out0_C_1
  rw [View.read_writes_eq_canon _ _ _ (cover0_C_1 c i a1 h1 a2 h2 hc0 hc1 x xo)]
  unfold kernelRun0_C
  dsimp only
  sl_unfold_words
  rw [View.canon_cons_unit_zero (S := S1x1) hz2, View.readCov_unit_zero (S := S1x1) _ hz2]
  simp only [View.readAt_eq_ld, h1.read_unread, h2.read_unread, View.ld_unit_zero (S := S512x2) hz2,
    View.ld_unit_zero (S := S1x1) hz2]

end Cert.ReferenceIdeal.Partial

end
-- ==== Proof.RBlock.lean ====
/-
  The reference body's payloads at the exact instance, read at an index.

  The first payload is the zero block. The second adds to the carried value the sum, over the 512 rows of the input
  block, of the per-row term: with a and b the row's two entries, the row's maximum m = max a b (the fold of max from -∞
  over the two classes), the sum exp (a - m) + exp (b - m) over the classes, its logarithm plus m, minus b. The third
  multiplies by the constant.
-/
import proofs.«173530_g2000306949564399_pallaspilot1_6_10_alg».proof.Proof.Gen.ReferenceIdeal.Skeleton
import proofs.«173530_g2000306949564399_pallaspilot1_6_10_alg».proof.Proof.RowLoss
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.ValueIdx

namespace Cert.ReferenceIdeal.Partial

open Cert.ReferenceIdeal Cert.ReferenceIdeal.Gen

/-- The input block's entry of class `cls` in the row a summation index names. -/
def rowIdx (cls : Fin 2) (i : S1x512x1.Idx) : S512x2.Idx :=
  ValueIdx.ix2 (⟨(i 1).val, (i 1).isLt⟩ : Fin 512) cls

/-- The bit pattern 0xFF800000 is -∞. -/
theorem ofBits_neg_inf : Ideal.ofBits .f32 0xFF800000#32 = ⊥ := by simp [Ideal.ofBits, Ideal.ieee]

/-- The index a reduction over the class axis reads at row r and class k is (r, k). -/
theorem lift_row (r : Fin 512) (k : Fin 2) :
    reduces_S512x2_S512.lift (ix1 r) k = ix2 r k := by
  funext a
  match a with
  | ⟨0, _⟩ => exact Fin.ext rfl
  | ⟨1, _⟩ => exact Fin.ext rfl

/-- The fold of max over the two classes from b. -/
theorem fold_max_two (b : EReal) (f : Fin 2 → EReal) :
    (Finset.univ : Finset (Fin 2)).fold max b f = max (f 0) (max (f 1) b) := by
  have hu : (Finset.univ : Finset (Fin 2)) = insert 0 {1} := by decide
  rw [hu, Finset.fold_insert (by decide), Finset.fold_singleton]

/-- A row's maximum over the two classes. -/
theorem rowMax_apply (y : FVec Ideal S512x2 .f32) (r : Fin 512) :
    multiReduction .maximumf [1] S512 y 0xFF800000#32 reduces_S512x2_S512 (.inl rfl) rfl (ix1 r)
      = max (y (ix2 r 0)) (y (ix2 r 1)) := by
  refine (Ideal.multiReduction_maximumf_single y _ reduces_S512x2_S512 (.inl rfl) rfl (ix1 r)).trans ?_
  refine (fold_max_two _ _).trans ?_
  show max (y (reduces_S512x2_S512.lift (ix1 r) (0 : Fin 2))) (max (y (reduces_S512x2_S512.lift (ix1 r) (1 : Fin 2)))
    (Ideal.ofBits .f32 0xFF800000#32)) = _
  rw [lift_row, lift_row, ofBits_neg_inf, max_bot_right]

/-- A row's sum over the two classes. -/
theorem rowSum_apply (y : FVec Ideal S512x2 .f32) (r : Fin 512) :
    multiReduction .add [1] S512 y 0x00000000#32 reduces_S512x2_S512 (.inl rfl) rfl (ix1 r)
      = y (ix2 r 0) + y (ix2 r 1) := by
  refine (Ideal.multiReduction_add_single y _ reduces_S512x2_S512 (.inl rfl) rfl (ix1 r)).trans ?_
  show ∑ k : Fin 2, y (reduces_S512x2_S512.lift (ix1 r) k) = _
  rw [Fin.sum_univ_two, lift_row, lift_row]

/-- A vector of 512 viewed as a column reads its entry. -/
theorem col_apply {α : Type} (v : S512.Idx → α) (r : Fin 512) :
    shapeCast S512x1 v shapeCasts_S512_S512x1 (ix2 r (0 : Fin 1)) = v (ix1 r) :=
  shapeCast_apply v _ _ _ (by
    rw [Shape.rowMajor_val_two, Shape.rowMajor_val_one]
    show r.val = r.val * 1 + 0
    omega)

/-- A column broadcast over the two classes reads the row's entry. -/
theorem bcast_apply {α : Type} (v : S512x1.Idx → α) (r : Fin 512) (k : Fin 2) :
    broadcastTo S512x2 v broadcasts_S512x1_S512x2 (ix2 r k) = v (ix2 r (0 : Fin 1)) :=
  broadcastTo_apply v _ _ _ (fun a => by
    match a with
    | ⟨0, _⟩ => rfl
    | ⟨1, _⟩ => rfl)

/-- The slice at class 1 reads the row's second entry. -/
theorem slice_apply {α : Type} (v : S512x2.Idx → α) (r : Fin 512) :
    extractStridedSlice S512x1 ![0, 1] v slices_S512x2_o0_1_S512x1 (ix2 r (0 : Fin 1)) = v (ix2 r (1 : Fin 2)) :=
  slice2_axis1_apply 1 v _ r 0 1 rfl

/-- The column of per-row values viewed as a 1 × 512 × 1 array reads the row the middle coordinate names. -/
theorem rows_apply {α : Type} (v : S512x1.Idx → α) (i : S1x512x1.Idx) :
    shapeCast S1x512x1 v shapeCasts_S512x1_S1x512x1 i = v (ix2 (⟨(i 1).val, (i 1).isLt⟩ : Fin 512) (0 : Fin 1)) :=
  shapeCast_apply v _ _ _ (by
    have h0 : (i 0).val < 1 := (i 0).isLt
    have h2 : (i 2).val < 1 := (i 2).isLt
    rw [Shape.rowMajor_val_two, Shape.rowMajor_val_three]
    show (i 1).val * 1 + 0 = ((i 0).val * 512 + (i 1).val) * 1 + (i 2).val
    omega)

/-- The first payload is the zero block. -/
theorem pay1_apply (j : S1x1.Idx) : k0_pay1 (F := Ideal) j = 0 := Ideal.ofBits_zero_f32

/-- The third payload multiplies by the constant. -/
theorem pay3_apply (v : Vec Ideal S1x1 .f32) (j : S1x1.Idx) :
    k0_pay3 v j = v j * Ideal.ofBits .f32 0x34800000#32 := by
  unfold k0_pay3
  exact congrArg (fun w : S1x1.Idx → EReal => w j * Ideal.ofBits .f32 0x34800000#32)
    (shapeCast_self v shapeCasts_S1x1_S1x1)

/-- The per-row value the body computes is the reference's per-row term. -/
theorem row_apply (x : FVec Ideal S512x2 .f32) (r : Fin 512) :
    (subf (addf (shapeCast S512x1 (multiReduction .maximumf [1] S512 x 0xFF800000#32 reduces_S512x2_S512 (.inl rfl) rfl) shapeCasts_S512_S512x1)
        (log (shapeCast S512x1 (multiReduction .add [1] S512
          (exp (subf x (broadcastTo S512x2 (shapeCast S512x1 (multiReduction .maximumf [1] S512 x 0xFF800000#32 reduces_S512x2_S512 (.inl rfl) rfl) shapeCasts_S512_S512x1) broadcasts_S512x1_S512x2)))
          0x00000000#32 reduces_S512x2_S512 (.inl rfl) rfl) shapeCasts_S512_S512x1)))
      (extractStridedSlice S512x1 ![0, 1] x slices_S512x2_o0_1_S512x1) : FVec Ideal S512x1 .f32) (ix2 r (0 : Fin 1))
      = RowLoss.rterm (x (ix2 r 0)) (x (ix2 r 1)) := by
  have hm : (shapeCast S512x1 (multiReduction .maximumf [1] S512 x 0xFF800000#32 reduces_S512x2_S512 (.inl rfl) rfl)
      shapeCasts_S512_S512x1 : FVec Ideal S512x1 .f32) (ix2 r (0 : Fin 1)) = max (x (ix2 r 0)) (x (ix2 r 1)) :=
    (col_apply _ r).trans (rowMax_apply x r)
  have he : ∀ k : Fin 2, (exp (subf x (broadcastTo S512x2 (shapeCast S512x1 (multiReduction .maximumf [1] S512 x 0xFF800000#32
      reduces_S512x2_S512 (.inl rfl) rfl) shapeCasts_S512_S512x1) broadcasts_S512x1_S512x2)) : FVec Ideal S512x2 .f32) (ix2 r k)
      = Ideal.exp (x (ix2 r k) - max (x (ix2 r 0)) (x (ix2 r 1))) := fun k =>
    congrArg (fun w : EReal => Ideal.exp (x (ix2 r k) - w)) ((bcast_apply _ r k).trans hm)
  have hs : (shapeCast S512x1 (multiReduction .add [1] S512
      (exp (subf x (broadcastTo S512x2 (shapeCast S512x1 (multiReduction .maximumf [1] S512 x 0xFF800000#32 reduces_S512x2_S512 (.inl rfl) rfl) shapeCasts_S512_S512x1) broadcasts_S512x1_S512x2)))
      0x00000000#32 reduces_S512x2_S512 (.inl rfl) rfl) shapeCasts_S512_S512x1 : FVec Ideal S512x1 .f32) (ix2 r (0 : Fin 1))
      = Ideal.exp (x (ix2 r 0) - max (x (ix2 r 0)) (x (ix2 r 1))) + Ideal.exp (x (ix2 r 1) - max (x (ix2 r 0)) (x (ix2 r 1))) :=
    (col_apply _ r).trans ((rowSum_apply _ r).trans (congrArg₂ (fun u w : EReal => u + w) (he 0) (he 1)))
  have hb : (extractStridedSlice S512x1 ![0, 1] x slices_S512x2_o0_1_S512x1 : FVec Ideal S512x1 .f32) (ix2 r (0 : Fin 1)) = x (ix2 r 1) :=
    slice_apply x r
  unfold RowLoss.rterm
  exact congrArg₂ (fun u w : EReal => u - w)
    (congrArg₂ (fun u w : EReal => u + w) hm (congrArg Ideal.log hs)) hb

/-- The second payload: the carried value plus the sum over the block's rows of the per-row term. -/
theorem pay2_apply (x : Vec Ideal S512x2 .f32) (xo : Vec Ideal S1x1 .f32) (j : S1x1.Idx) :
    k0_pay2 x xo j = xo j + ∑ i : S1x512x1.Idx, RowLoss.rterm (x (rowIdx 0 i)) (x (rowIdx 1 i)) := by
  unfold k0_pay2
  refine congrArg₂ (fun u w : EReal => u + w) (congrFun (shapeCast_self xo shapeCasts_S1x1_S1x1) j) ?_
  refine (Ideal.multiReduction_add_total (φ := .f32) _ _ reduces_S1x512x1_S1 (fun b => by fin_cases b; rfl) (.inl rfl) rfl _).trans ?_
  refine Finset.sum_congr rfl fun i _ => ?_
  exact (rows_apply _ i).trans (row_apply x ⟨(i 1).val, (i 1).isLt⟩)

end Cert.ReferenceIdeal.Partial

end
-- ==== Proof.RAcc.lean ====
/-
  The reference's accumulator, point by point. The grid is one run of 8192 points, point t reading the 512 rows
  512·t ≤ r < 512·(t + 1) of the logits. After point n the one-element accumulator holds the sum of the per-row terms
  over the rows r < 512·(n + 1); at the last point that sum is multiplied by the constant. By induction on the point:
  the first point stores zero plus its block's sum, each later point adds its block's sum, consecutive intervals of
  rows join, and the last point scales what it has just stored.
-/
import proofs.«173530_g2000306949564399_pallaspilot1_6_10_alg».proof.Proof.RPieces
import proofs.«173530_g2000306949564399_pallaspilot1_6_10_alg».proof.Proof.RBlock
import proofs.«173530_g2000306949564399_pallaspilot1_6_10_alg».proof.Proof.Rows
import proofs.«173530_g2000306949564399_pallaspilot1_6_10_alg».proof.Proof.LibFlatSum

set_option maxRecDepth 16384

noncomputable section

open Idealize.ShloMosaic Idealize.ShloMosaic.TcCoe Idealize.SL.Sem

namespace Cert.ReferenceIdeal.Partial

open Cert.ReferenceIdeal Cert.ReferenceIdeal.Gen ValueIdx

variable (m : (ℓ : Loc nD τ sig) → Buf (Elt Ideal) ℓ)

/-- The logits on core `c`. -/
abbrev logits (c : Dev nD) : Rows.Logits := m ((c : Thread nD τ).loc main_arg0)

/-- The input window's block index at point `t` is `(t, 0)`. -/
theorem in_index : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- Entry (r, cls) of the block of point `t`: class `cls` of row `512·t + r`. -/
theorem iblk_read (c : Dev nD) (t : Fin cfg0.N) (r : Fin 512) (cls : Fin 2) :
    (iblk m c 0 t : Vec Ideal S512x2 .f32) (ix2 r cls) = Rows.colAt (logits m c) cls (t.val * 512 + r.val) := by
  unfold iblk
  rw [View.read_apply]
  show V m c main_arg0 (((cfg0.win 0).blk t).view.emb (ix2 r cls)) = _
  refine Rows.colAt_eq _ cls _ _ ?_ ?_
  · show win0_0.index t 0 * 512 + 1 * r.val = _
    rw [(in_index t).1]; omega
  · show win0_0.index t 1 * 2 + 1 * cls.val = cls.val
    rw [(in_index t).2]; omega

/-- The block of point `t` summed row by row is the per-row term summed over the point's 512 rows. -/
theorem block_sum (c : Dev nD) (t : Fin cfg0.N) :
    ∑ i : S1x512x1.Idx, RowLoss.rterm ((iblk m c 0 t : Vec Ideal S512x2 .f32) (rowIdx 0 i)) ((iblk m c 0 t : Vec Ideal S512x2 .f32) (rowIdx 1 i))
      = Rows.rowsSum RowLoss.rterm (logits m c) (t.val * 512) ((t.val + 1) * 512) := by
  have e : (t.val + 1) * 512 = t.val * 512 + 512 := by omega
  rw [e]
  refine FlatSum.sum_idx_of_pos S1x512x1 _ (fun r => RowLoss.rterm (Rows.colAt (logits m c) 0 r) (Rows.colAt (logits m c) 1 r))
    (t.val * 512) 512 (by decide) fun i => ?_
  have hi0 : (i 0).val = 0 := by have h : (i 0).val < 1 := (i 0).isLt; omega
  have hi2 : (i 2).val = 0 := by have h : (i 2).val < 1 := (i 2).isLt; omega
  have hpos : (S1x512x1.rowMajor i).val = (i 1).val := by
    rw [Shape.rowMajor_val_three]
    show ((i 0).val * 512 + (i 1).val) * 1 + (i 2).val = _
    rw [hi0, hi2]; omega
  unfold rowIdx
  rw [iblk_read m c t _ 0, iblk_read m c t _ 1, hpos]

/-- After point `n` the accumulator holds the per-row terms summed over the rows below 512·(n + 1), times the constant
    at the last point. -/
theorem acc_eq (c : Dev nD) : ∀ (n : ℕ) (h : n < cfg0.N) (j : S1x1.Idx),
    outsAt0 m c n h j
      = if n = 8191 then Rows.rowsSum RowLoss.rterm (logits m c) 0 ((n + 1) * 512) * Ideal.ofBits .f32 0x34800000#32
        else Rows.rowsSum RowLoss.rterm (logits m c) 0 ((n + 1) * 512)
  | 0, h, j => by
    rw [outsAt0_A m c ⟨0, h⟩ rfl (show ¬(0 % 8192 = 8191) by decide), out_first, pay2_apply, pay1_apply, zero_add, block_sum, if_neg (by decide)]
    rfl
  | n + 1, h, j => by
    have hN : n + 1 < 8192 := lt_of_lt_of_eq h (show cfg0.N = 8192 from N_0)
    have h0 : ¬(n + 1) % 8192 = 0 := by omega
    have hn : ¬n = 8191 := by omega
    by_cases h1 : (n + 1) % 8192 = 8191
    · have hl : n + 1 = 8191 := by omega
      rw [outsAt0_C m c ⟨n + 1, h⟩ h0 h1, out_last, pay3_apply, pay2_apply, block_sum, if_pos hl]
      show (outsAt0 m c n _ j + Rows.rowsSum _ _ ((n + 1) * 512) ((n + 1 + 1) * 512)) * _ = _
      rw [acc_eq c n _ j, if_neg hn, Rows.rowsSum_add _ _ (by omega) (by omega)]
    · have hl : ¬n + 1 = 8191 := by omega
      rw [outsAt0_B m c ⟨n + 1, h⟩ h0 h1, out_middle, pay2_apply, block_sum, if_neg hl]
      show outsAt0 m c n _ j + Rows.rowsSum _ _ ((n + 1) * 512) ((n + 1 + 1) * 512) = _
      rw [acc_eq c n _ j, if_neg hn, Rows.rowsSum_add _ _ (by omega) (by omega)]

end Cert.ReferenceIdeal.Partial

end
-- ==== Proof.RRun.lean ====
/-
  The reference's result. The accumulator is written back once, after the last point, into the one block of the
  one-element result array, so after the region that array holds the per-row terms summed over all 4194304 rows times
  the constant. The one host operation after the region views the 1 × 1 array as a scalar, which holds the same value;
  the argument array is left as launched.
-/
import proofs.«173530_g2000306949564399_pallaspilot1_6_10_alg».proof.Proof.RAcc
import Idealize.ShloMosaic.Lib.StableHlo.Run
import Idealize.ShloMosaic.Lib.Pipeline.Value

set_option maxRecDepth 16384

noncomputable section

open Idealize.ShloMosaic Idealize.ShloMosaic.TcCoe Idealize.SL.Sem
open Idealize.ShloMosaic.Pipeline (Dat)

namespace Cert.ReferenceIdeal.Partial

open Cert.ReferenceIdeal Cert.ReferenceIdeal.Gen ValueIdx

variable (m : (ℓ : Loc nD τ sig) → Buf (Elt Ideal) ℓ)

/-- The reference's value: the per-row terms summed over all rows, times the constant. -/
def total (c : Dev nD) : EReal :=
  Rows.rowsSum RowLoss.rterm (logits m c) 0 4194304 * Ideal.ofBits .f32 0x34800000#32

/-- The result array at the reference's value. -/
abbrev totalArr (c : Dev nD) : Buf (Elt Ideal) ((c : Thread nD τ).loc main_v0) := fun _ => total m c

/-- The output window's block index is `(0, 0)` at every point. -/
theorem out_index : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

/-- What the last point writes back is the reference's value. -/
theorem flushed_eq (c : Dev nD) (t : Fin cfg0.N) (hf : (cfg0.win 1).flush t = true) :
    (dats m 0 c).flushed 1 t = ((cfg0.win 1).blk t).view.read (Elt Ideal) (totalArr m c) := by
  show (cfg0.win 1).cut (grid0.coords t) ((dats m 0 c).after 1 t) = _
  rw [after0_1]
  have hN : t.val < 8192 := lt_of_lt_of_eq t.isLt (show cfg0.N = 8192 from N_0)
  have h8 : t.val = 8191 := by have := (flush0_1 t).mp hf; omega
  funext y
  show outsAt0 m c t.val t.isLt y = total m c
  rw [acc_eq, if_pos h8, h8]
  rfl

/-- An index of the array is in point `t`'s block iff each coordinate is in the block's range on its axis. -/
theorem mem_blk (t : Fin cfg0.N) (i : S1x1.Idx) :
    i ∈ ((cfg0.win 1).blk t).view.set ↔ ∀ a : Fin 2, win0_1.index t a * S1x1.size a ≤ (i a).val ∧ (i a).val < win0_1.index t a * S1x1.size a + S1x1.size a := by
  show i ∈ ((View.whole main_v0).slice (win0_1.rect t)).set ↔ _
  rw [View.set_slice_whole, Rect.mem_set_unit]
  exact Iff.rfl

/-- So the result array after the region holds the reference's value. -/
theorem final (c : Dev nD) : (dats m 0 c).arrAt 1 cfg0.N = fun _ => total m c :=
  (dats m 0 c).arrAt_eq_of_cover 1 (totalArr m c) (flushed_eq m c) fun i => by
    have hi0 : (i 0).val < 1 := (i 0).isLt
    have hi1 : (i 1).val < 1 := (i 1).isLt
    have hN : cfg0.N = 8192 := N_0
    refine ⟨⟨8191, by omega⟩, (flush0_1 _).mpr rfl, ?_⟩
    rw [mem_blk]
    obtain ⟨e0, e1⟩ := out_index ⟨8191, by omega⟩
    intro a
    match a with
    | ⟨0, _⟩ =>
      show win0_1.index _ (0 : Fin 2) * 1 ≤ (i 0).val ∧ (i 0).val < win0_1.index _ (0 : Fin 2) * 1 + 1
      rw [e0]; omega
    | ⟨1, _⟩ =>
      show win0_1.index _ (1 : Fin 2) * 1 ≤ (i 1).val ∧ (i 1).val < win0_1.index _ (1 : Fin 2) * 1 + 1
      rw [e1]; omega

/-- The host operation after the region views the one-element array as a scalar: it holds the reference's value. -/
theorem tail_eq (c : Dev nD) :
    Pipeline.afterTail₀ cfgs (dats m) 0 (V0 m) [hostOps1] c main_v1 = fun _ => total m c := by
  unfold Pipeline.afterTail₀
  show StableHlo.after hostOps1 _ (Proc.devRef .tc main_v1) = _
  after_results
  have hA : Pipeline.withArrays spec0 c (V0 m c) (fun w => (dats m 0 c).arrAt w cfg0.N) (Proc.devRef .tc main_v0)
      = fun _ => total m c :=
    (Pipeline.withArrays_arr spec0 launch0.win.arr_inj c _ _ 1).trans (final m c)
  funext j
  show shapeCast S_ (Pipeline.withArrays spec0 c (V0 m c) (fun w => (dats m 0 c).arrAt w cfg0.N) (Proc.devRef .tc main_v0)) shapeCasts_S1x1_S_ j = _
  rw [hA]
  rfl

/-- The run, read: the scalar result at the reference's value, the argument unchanged. -/
theorem run (ρ : Dev nD → PrngReg) : θ_run defs (onTc (τ := τ) (main (F := Ideal))) ⟨m, fun _ => 0, ρ⟩ fun r => ∀ c : Dev nD,
      r.2.mem ((c : Thread nD τ).loc main_v1) = (fun _ => total m c)
      ∧ r.2.mem ((c : Thread nD τ).loc main_arg0) = m ((c : Thread nD τ).loc main_arg0) :=
  (θ_run defs _ _).mono (fun r h c =>
      ⟨((h c).2 main_v1 (Pipeline.mem_restRefs_of main_v1 (by decide) (by decide))).trans (tail_eq m c),
        ((h c).1 0).trans (((dats m 0 c).arrAt_in 0 rfl _).trans ((A_eq m c 0).trans (V_main_arg0 m c)))⟩)
    (run_main m ρ)

end Cert.ReferenceIdeal.Partial

end
-- ==== Proof.Bridge.lean ====
/-
  The two per-row terms summed over the rows agree on finite logits: at every row both entries are reals, where the
  kernel's term and the reference's are the same number, so the sums over all rows are equal.
-/
import proofs.«173530_g2000306949564399_pallaspilot1_6_10_alg».proof.Proof.Rows
import proofs.«173530_g2000306949564399_pallaspilot1_6_10_alg».proof.Proof.RowLoss

noncomputable section

open Idealize.ShloMosaic

namespace Rows

/-- At a row of the array whose entries are reals the two per-row terms agree. -/
theorem terms_agree (x : Rows.Logits) (hx : ∀ i, ∃ r : ℝ, x i = (r : EReal)) (r : ℕ) (hr : r < 4194304) :
    RowLoss.kterm (Rows.colAt x 0 r) (Rows.colAt x 1 r) = RowLoss.rterm (Rows.colAt x 0 r) (Rows.colAt x 1 r) := by
  unfold Rows.colAt
  rw [dif_pos hr, dif_pos hr]
  obtain ⟨a, ha⟩ := hx (ValueIdx.ix2 ⟨r, hr⟩ 0)
  obtain ⟨b, hb⟩ := hx (ValueIdx.ix2 ⟨r, hr⟩ 1)
  rw [ha, hb]
  exact RowLoss.kterm_eq_rterm a b

/-- So the two sums over all rows agree. -/
theorem sums_agree (x : Rows.Logits) (hx : ∀ i, ∃ r : ℝ, x i = (r : EReal)) :
    Rows.rowsSum RowLoss.kterm x 0 4194304 = Rows.rowsSum RowLoss.rterm x 0 4194304 :=
  Rows.rowsSum_congr _ _ x 0 4194304 fun r hr => terms_agree x hx r hr

end Rows

end
-- ==== Proof.FiniteInput.lean ====
/-
  From the precondition to the finiteness of the input. The precondition computes, over every entry x of the
  input, the conjunction of the comparisons |x| < +∞, where |x| = max x (-x) on the extended reals. If that
  conjunction is true then each comparison is, and an extended real whose absolute value is below +∞ is
  neither ⊥ nor ⊤: it is (the coercion of) a real number.
-/
import proofs.«173530_g2000306949564399_pallaspilot1_6_10_alg».proof.Pre_finite_inputs
import Idealize.ShloMosaic.Lib.ReduceAll
import Idealize.ShloMosaic.PureOps.Ideal
import Idealize.ShloMosaic.PureOps.Ideal.Laws

noncomputable section

namespace Cert.FiniteInput

open Idealize.ShloMosaic

/-- The rank-0 shape has exactly one index. -/
instance subsingleton_idx : Subsingleton Cert.Pre_finite_inputs.S_.Idx :=
  ⟨fun _ _ => funext fun d => d.elim0⟩

/-- The bit pattern 0x7F800000 is +∞. -/
theorem ofBits_inf : Ideal.ofBits .f32 0x7F800000#32 = ⊤ := by simp [Ideal.ofBits, Ideal.ieee]

/-- A Boolean as a one-bit word is 1 exactly when it is true. -/
theorem ofBool_eq_one {b : Bool} : BitVec.ofBool b = 1#1 ↔ b = true := by cases b <;> decide

/-- An extended real whose absolute value max x (-x) is below +∞ is a real: at ⊥ the negation is ⊤,
    at ⊤ the value itself is. -/
theorem real_of_abs_lt_top (y : EReal) (h : max y (-y) < ⊤) : ∃ r : ℝ, y = (r : EReal) := by
  induction y using EReal.rec with
  | bot => simp at h
  | coe r => exact ⟨r, rfl⟩
  | top => simp at h

/-- If the precondition holds of the input, every entry of the input is a real: the precondition is the
    conjunction over all entries of |x| < +∞, so each conjunct holds, and an extended real of finite absolute
    value is neither infinity. -/
theorem real_of_pre [Cert.Pre_finite_inputs.Facts]
    (x : FVec Ideal Cert.Pre_finite_inputs.S4194304x2 .f32)
    (h : Cert.Pre_finite_inputs.fn (F := Ideal) x = fun _ => 1#1) :
    ∀ i, ∃ r : ℝ, x i = (r : EReal) := by
  intro i
  have h0 := congrFun h (fun d => d.elim0)
  dsimp only [Cert.Pre_finite_inputs.fn] at h0
  have hi := Host.reduce_andi_all _ _ _ _ _ h0 i
  have hc : Ideal.cmp .olt (max (x i) (-(x i))) (Ideal.ofBits .f32 0x7F800000#32) = 1#1 := hi
  rw [ofBits_inf] at hc
  have hc' : BitVec.ofBool (decide (max (x i) (-(x i)) < (⊤ : EReal))) = 1#1 := hc
  exact real_of_abs_lt_top (x i) (of_decide_eq_true (ofBool_eq_one.mp hc'))

end Cert.FiniteInput

end
-- ==== Proof.lean ====
/-
  The mean cross-entropy of 4194304 rows of two logits against class 1, computed two ways.

  For a row with real logits (a, b) the loss is log (exp a + exp b) − b = log (1 + exp (a − b)). The kernel computes it as
  the softplus of d = a − b in the stable form max (d, 0) + log (1 + exp (−|d|)); the reference as the stable
  log-sum-exp m + log (exp (a − m) + exp (b − m)) − b with m = max (a, b). On real numbers the two agree (split on
  a ≥ b); the precondition makes every logit a real, and that is the only place it is used.

  The kernel reads the rows 131072 at a time through a re-laid view of the logits, accumulates sixteen consecutive
  blocks into each of two partial sums, and the host adds the two and multiplies by 2⁻²². The reference reads the rows
  512 at a time, accumulates all 8192 blocks into one sum and multiplies by the same constant at its last step. A sum
  accumulated over consecutive intervals of rows is the sum over their union, in any commutative monoid — the
  extended reals need no finiteness for that — so both results are the per-row terms summed over all rows times one
  constant, whose bit pattern is the same on both sides and is never evaluated.

  Neither program's idealization rewrote anything, and each program's frame (it terminates, faults nowhere and leaves
  the logits as launched) is its generated frame.
-/
import proofs.«173530_g2000306949564399_pallaspilot1_6_10_alg».proof.Defs
import proofs.«173530_g2000306949564399_pallaspilot1_6_10_alg».proof.Proof.Gen.Kernel
import proofs.«173530_g2000306949564399_pallaspilot1_6_10_alg».proof.Proof.Gen.Kernel.Frame
import proofs.«173530_g2000306949564399_pallaspilot1_6_10_alg».proof.Proof.Gen.KernelIdeal
import proofs.«173530_g2000306949564399_pallaspilot1_6_10_alg».proof.Proof.Gen.KernelIdeal.Frame
import proofs.«173530_g2000306949564399_pallaspilot1_6_10_alg».proof.Proof.Gen.ReferenceIdeal
import proofs.«173530_g2000306949564399_pallaspilot1_6_10_alg».proof.Proof.Gen.ReferenceIdeal.Frame
import proofs.«173530_g2000306949564399_pallaspilot1_6_10_alg».proof.Proof.Gen.Pre_finite_inputs
import proofs.«173530_g2000306949564399_pallaspilot1_6_10_alg».proof.Proof.KRun
import proofs.«173530_g2000306949564399_pallaspilot1_6_10_alg».proof.Proof.RRun
import proofs.«173530_g2000306949564399_pallaspilot1_6_10_alg».proof.Proof.Bridge
import proofs.«173530_g2000306949564399_pallaspilot1_6_10_alg».proof.Proof.FiniteInput
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- The idealization rewrote no operation. -/
theorem preserves : Cert.preserves_Kernel_KernelIdeal := trivial

/-- Both runs end at the per-row terms summed over all rows times the constant, each with its own per-row term; on
    logits that agree and are real the two per-row terms agree row by row. -/
theorem algebraic : Cert.algebraic_KernelIdeal_ReferenceIdeal := by
  intro m ρ m' ρ' hpre hagree
  refine ⟨fun c => fun _ => Cert.KernelIdeal.Partial.mean m c, Cert.KernelIdeal.Partial.run m ρ, ?_⟩
  refine (θ_run Cert.ReferenceIdeal.defs _ _).mono (fun _ h c => ⟨(h c).1.trans ?_, (h c).2⟩)
    (Cert.ReferenceIdeal.Partial.run m' ρ')
  funext _
  unfold Cert.ReferenceIdeal.Partial.total Cert.KernelIdeal.Partial.mean
  unfold Cert.ReferenceIdeal.Partial.logits Cert.KernelIdeal.Partial.logits
  dsimp only
  rw [hagree c, Rows.sums_agree _ (Cert.FiniteInput.real_of_pre _ (hpre c))]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
